-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  main_v3
-- ==== Kernel.lean ====
abbrev S4194304x8 : Shape := ⟨2, ![4194304, 8]⟩
abbrev S4194304x32 : Shape := ⟨2, ![4194304, 32]⟩
abbrev S4096x8 : Shape := ⟨2, ![4096, 8]⟩
abbrev S4096x32 : Shape := ⟨2, ![4096, 32]⟩
abbrev S4096x1 : Shape := ⟨2, ![4096, 1]⟩
abbrev S4096x23 : Shape := ⟨2, ![4096, 23]⟩

abbrev nBuf : Space → Nat
  | .hbm => 2
  | .vmem => 4
  | .smem => 0
  | _ => 0

abbrev bufTy : (tb : Table) → Fin (tcTables nBuf tb) → BufTy
  | .hbm, ⟨0, _⟩ => ⟨S4194304x8, .f32⟩
  | .hbm, ⟨1, _⟩ => ⟨S4194304x32, .f32⟩
  | .local _ .vmem, ⟨0, _⟩ => ⟨S4096x8, .f32⟩
  | .local _ .vmem, ⟨1, _⟩ => ⟨S4096x8, .f32⟩
  | .local _ .vmem, ⟨2, _⟩ => ⟨S4096x32, .f32⟩
  | .local _ .vmem, ⟨3, _⟩ => ⟨S4096x32, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  slices_S4096x8_o0_0_S4096x1 : S4096x8.Slices ![0, 0] S4096x1
  slices_S4096x8_o0_1_S4096x1 : S4096x8.Slices ![0, 1] S4096x1
  slices_S4096x8_o0_2_S4096x1 : S4096x8.Slices ![0, 2] S4096x1
  slices_S4096x8_o0_3_S4096x1 : S4096x8.Slices ![0, 3] S4096x1
  slices_S4096x8_o0_4_S4096x1 : S4096x8.Slices ![0, 4] S4096x1
  slices_S4096x8_o0_5_S4096x1 : S4096x8.Slices ![0, 5] S4096x1
  slices_S4096x8_o0_6_S4096x1 : S4096x8.Slices ![0, 6] S4096x1
  slices_S4096x8_o0_7_S4096x1 : S4096x8.Slices ![0, 7] S4096x1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  shapeCasts_S4096x1_S4096x1 : S4096x1.ShapeCasts S4096x1
  broadcasts_S4096x1_S4096x8 : S4096x1.Broadcasts S4096x8
  concatenates_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x23_d1 : Shape.Concatenates [S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1] S4096x23 1
  broadcasts_S4096x1_S4096x23 : S4096x1.Broadcasts S4096x23
  concatenates_S4096x1_S4096x8_S4096x23_S4096x32_d1 : Shape.Concatenates [S4096x1, S4096x8, S4096x23] S4096x32 1
  inb_S4096x32_S4096x32_0_0 : ∀ a, (![0, 0] : Fin 2 → Nat) a + S4096x32.size a ≤ S4096x32.size a
  h_S4096x32 : 0 < S4096x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S4194304x8.size a
  hwx0_0 : ∀ i : grid0.Coords, EltTy.bits .f32 = 32 ∨ (Rect.block (s := S4194304x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4194304x32.size a
  hwx0_1 : ∀ i : grid0.Coords, EltTy.bits .f32 = 32 ∨ (Rect.block (s := S4194304x32) S4096x32.size (cc0_transform_1 i) (hinb0_1 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304x1 : Shape := ⟨2, ![4194304, 1]⟩
abbrev S_ : Shape := ⟨0, ![]⟩
abbrev S4194304x16 : Shape := ⟨2, ![4194304, 16]⟩
abbrev S4194304x7 : Shape := ⟨2, ![4194304, 7]⟩
abbrev S4194304x23 : Shape := ⟨2, ![4194304, 23]⟩
abbrev S4194304x32 : Shape := ⟨2, ![4194304, 32]⟩

abbrev nBuf : Space → Nat
  | .hbm => 265
  | .vmem => 0
  | .smem => 0
  | _ => 0

abbrev hbmTy0_0 (i : Nat) : BufTy := match i % 128 with
  | 0 => ⟨S4194304x8, .f32⟩
  | 1 => ⟨S4194304x1, .f32⟩
  | 2 => ⟨S_, .f32⟩
  | 3 => ⟨S4194304x1, .f32⟩
  | 4 => ⟨S_, .f32⟩
  | 5 => ⟨S4194304x1, .f32⟩
  | 6 => ⟨S4194304x1, .f32⟩
  | 7 => ⟨S4194304x1, .f32⟩
  | 8 => ⟨S4194304x1, .f32⟩
  | 9 => ⟨S4194304x1, .f32⟩
  | 10 => ⟨S4194304x1, .f32⟩
  | 11 => ⟨S4194304x1, .f32⟩
  | 12 => ⟨S4194304x1, .f32⟩
  | 13 => ⟨S4194304x1, .f32⟩
  | 14 => ⟨S4194304x1, .f32⟩
  | 15 => ⟨S4194304x1, .f32⟩
  | 16 => ⟨S4194304x1, .f32⟩
  | 17 => ⟨S4194304x1, .f32⟩
  | 18 => ⟨S4194304x1, .f32⟩
  | 19 => ⟨S4194304x1, .f32⟩
  | 20 => ⟨S4194304x1, .f32⟩
  | 21 => ⟨S4194304x1, .f32⟩
  | 22 => ⟨S4194304x1, .f32⟩
  | 23 => ⟨S_, .f32⟩
  | 24 => ⟨S4194304x1, .f32⟩
  | 25 => ⟨S4194304x1, .f32⟩
  | 26 => ⟨S4194304x1, .f32⟩
  | 27 => ⟨S4194304x1, .f32⟩
  | 28 => ⟨S4194304x1, .f32⟩
  | 29 => ⟨S4194304x1, .f32⟩
  | 30 => ⟨S4194304x1, .f32⟩
  | 31 => ⟨S4194304x1, .f32⟩
  | 32 => ⟨S4194304x1, .f32⟩
  | 33 => ⟨S4194304x8, .f32⟩
  | 34 => ⟨S4194304x8, .f32⟩
  | 35 => ⟨S4194304x1, .f32⟩
  | 36 => ⟨S_, .f32⟩
  | 37 => ⟨S4194304x1, .f32⟩
  | 38 => ⟨S4194304x1, .f32⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S4194304x1, .f32⟩
  | 45 => ⟨S4194304x1, .f32⟩
  | 46 => ⟨S4194304x1, .f32⟩
  | 47 => ⟨S_, .f32⟩
  | 48 => ⟨S4194304x1, .f32⟩
  | 49 => ⟨S4194304x1, .f32⟩
  | 50 => ⟨S4194304x1, .f32⟩
  | 51 => ⟨S4194304x1, .f32⟩
  | 52 => ⟨S4194304x1, .f32⟩
  | 53 => ⟨S4194304x1, .f32⟩
  | 54 => ⟨S4194304x1, .f32⟩
  | 55 => ⟨S4194304x1, .f32⟩
  | 56 => ⟨S4194304x1, .f32⟩
  | 57 => ⟨S4194304x1, .f32⟩
  | 58 => ⟨S4194304x1, .f32⟩
  | 59 => ⟨S4194304x1, .f32⟩
  | 60 => ⟨S_, .f32⟩
  | 61 => ⟨S4194304x1, .f32⟩
  | 62 => ⟨S4194304x1, .f32⟩
  | 63 => ⟨S4194304x1, .f32⟩
  | 64 => ⟨S4194304x1, .f32⟩
  | 65 => ⟨S4194304x1, .f32⟩
  | 66 => ⟨S_, .f32⟩
  | 67 => ⟨S4194304x1, .f32⟩
  | 68 => ⟨S4194304x1, .f32⟩
  | 69 => ⟨S4194304x1, .f32⟩
  | 70 => ⟨S4194304x1, .f32⟩
  | 71 => ⟨S4194304x1, .f32⟩
  | 72 => ⟨S4194304x1, .f32⟩
  | 73 => ⟨S4194304x1, .f32⟩
  | 74 => ⟨S4194304x1, .f32⟩
  | 75 => ⟨S4194304x1, .f32⟩
  | 76 => ⟨S4194304x1, .f32⟩
  | 77 => ⟨S4194304x1, .f32⟩
  | 78 => ⟨S4194304x1, .f32⟩
  | 79 => ⟨S_, .f32⟩
  | 80 => ⟨S4194304x1, .f32⟩
  | 81 => ⟨S4194304x1, .f32⟩
  | 82 => ⟨S4194304x1, .f32⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S4194304x1, .f32⟩
  | 89 => ⟨S4194304x1, .f32⟩
  | 90 => ⟨S4194304x1, .f32⟩
  | 91 => ⟨S4194304x1, .f32⟩
  | 92 => ⟨S4194304x1, .f32⟩
  | 93 => ⟨S4194304x1, .f32⟩
  | 94 => ⟨S4194304x1, .f32⟩
  | 95 => ⟨S4194304x1, .f32⟩
  | 96 => ⟨S4194304x1, .f32⟩
  | 97 => ⟨S4194304x1, .f32⟩
  | 98 => ⟨S_, .f32⟩
  | 99 => ⟨S4194304x1, .f32⟩
  | 100 => ⟨S4194304x1, .f32⟩
  | 101 => ⟨S4194304x1, .f32⟩
  | 102 => ⟨S4194304x1, .f32⟩
  | 103 => ⟨S4194304x1, .f32⟩
  | 104 => ⟨S_, .f32⟩
  | 105 => ⟨S4194304x1, .f32⟩
  | 106 => ⟨S4194304x1, .f32⟩
  | 107 => ⟨S4194304x1, .f32⟩
  | 108 => ⟨S4194304x1, .f32⟩
  | 109 => ⟨S4194304x1, .f32⟩
  | 110 => ⟨S4194304x1, .f32⟩
  | 111 => ⟨S4194304x1, .f32⟩
  | 112 => ⟨S4194304x1, .f32⟩
  | 113 => ⟨S4194304x1, .f32⟩
  | 114 => ⟨S4194304x1, .f32⟩
  | 115 => ⟨S4194304x1, .f32⟩
  | 116 => ⟨S4194304x1, .f32⟩
  | 117 => ⟨S_, .f32⟩
  | 118 => ⟨S4194304x1, .f32⟩
  | 119 => ⟨S4194304x1, .f32⟩
  | 120 => ⟨S4194304x1, .f32⟩
  | 121 => ⟨S4194304x1, .f32⟩
  | 122 => ⟨S4194304x1, .f32⟩
  | 123 => ⟨S_, .f32⟩
  | 124 => ⟨S4194304x1, .f32⟩
  | 125 => ⟨S4194304x1, .f32⟩
  | 126 => ⟨S4194304x1, .f32⟩
  | 127 => ⟨S4194304x1, .f32⟩
  | _ => ⟨S4194304x8, .f32⟩

abbrev hbmTy0_1 (i : Nat) : BufTy := match i % 128 with
  | 0 => ⟨S4194304x1, .f32⟩
  | 1 => ⟨S4194304x1, .f32⟩
  | 2 => ⟨S4194304x1, .f32⟩
  | 3 => ⟨S4194304x1, .f32⟩
  | 4 => ⟨S4194304x1, .f32⟩
  | 5 => ⟨S4194304x1, .f32⟩
  | 6 => ⟨S4194304x1, .f32⟩
  | 7 => ⟨S4194304x1, .f32⟩
  | 8 => ⟨S_, .f32⟩
  | 9 => ⟨S4194304x1, .f32⟩
  | 10 => ⟨S4194304x1, .f32⟩
  | 11 => ⟨S4194304x1, .f32⟩
  | 12 => ⟨S4194304x1, .f32⟩
  | 13 => ⟨S4194304x1, .f32⟩
  | 14 => ⟨S_, .f32⟩
  | 15 => ⟨S4194304x1, .f32⟩
  | 16 => ⟨S4194304x1, .f32⟩
  | 17 => ⟨S4194304x1, .f32⟩
  | 18 => ⟨S4194304x1, .f32⟩
  | 19 => ⟨S4194304x1, .f32⟩
  | 20 => ⟨S4194304x1, .f32⟩
  | 21 => ⟨S4194304x1, .f32⟩
  | 22 => ⟨S4194304x1, .f32⟩
  | 23 => ⟨S4194304x1, .f32⟩
  | 24 => ⟨S4194304x1, .f32⟩
  | 25 => ⟨S4194304x1, .f32⟩
  | 26 => ⟨S4194304x1, .f32⟩
  | 27 => ⟨S_, .f32⟩
  | 28 => ⟨S4194304x1, .f32⟩
  | 29 => ⟨S4194304x1, .f32⟩
  | 30 => ⟨S4194304x1, .f32⟩
  | 31 => ⟨S4194304x1, .f32⟩
  | 32 => ⟨S4194304x1, .f32⟩
  | 33 => ⟨S_, .f32⟩
  | 34 => ⟨S4194304x1, .f32⟩
  | 35 => ⟨S4194304x1, .f32⟩
  | 36 => ⟨S4194304x1, .f32⟩
  | 37 => ⟨S4194304x1, .f32⟩
  | 38 => ⟨S4194304x1, .f32⟩
  | 39 => ⟨S4194304x1, .f32⟩
  | 40 => ⟨S4194304x1, .f32⟩
  | 41 => ⟨S4194304x1, .f32⟩
  | 42 => ⟨S4194304x1, .f32⟩
  | 43 => ⟨S4194304x1, .f32⟩
  | 44 => ⟨S4194304x1, .f32⟩
  | 45 => ⟨S4194304x1, .f32⟩
  | 46 => ⟨S_, .f32⟩
  | 47 => ⟨S4194304x1, .f32⟩
  | 48 => ⟨S4194304x1, .f32⟩
  | 49 => ⟨S4194304x1, .f32⟩
  | 50 => ⟨S4194304x1, .f32⟩
  | 51 => ⟨S4194304x1, .f32⟩
  | 52 => ⟨S_, .f32⟩
  | 53 => ⟨S4194304x1, .f32⟩
  | 54 => ⟨S4194304x1, .f32⟩
  | 55 => ⟨S4194304x1, .f32⟩
  | 56 => ⟨S4194304x1, .f32⟩
  | 57 => ⟨S4194304x1, .f32⟩
  | 58 => ⟨S4194304x1, .f32⟩
  | 59 => ⟨S4194304x1, .f32⟩
  | 60 => ⟨S4194304x1, .f32⟩
  | 61 => ⟨S4194304x1, .f32⟩
  | 62 => ⟨S4194304x8, .f32⟩
  | 63 => ⟨S4194304x8, .f32⟩
  | 64 => ⟨S_, .f32⟩
  | 65 => ⟨S4194304x1, .f32⟩
  | 66 => ⟨S4194304x1, .f32⟩
  | 67 => ⟨S_, .f32⟩
  | 68 => ⟨S4194304x1, .f32⟩
  | 69 => ⟨S4194304x1, .f32⟩
  | 70 => ⟨S4194304x1, .f32⟩
  | 71 => ⟨S4194304x8, .f32⟩
  | 72 => ⟨S4194304x8, .f32⟩
  | 73 => ⟨S4194304x8, .f32⟩
  | 74 => ⟨S4194304x8, .f32⟩
  | 75 => ⟨S4194304x8, .f32⟩
  | 76 => ⟨S4194304x8, .f32⟩
  | 77 => ⟨S_, .f32⟩
  | 78 => ⟨S4194304x8, .f32⟩
  | 79 => ⟨S4194304x8, .f32⟩
  | 80 => ⟨S4194304x8, .f32⟩
  | 81 => ⟨S4194304x8, .f32⟩
  | 82 => ⟨S4194304x8, .f32⟩
  | 83 => ⟨S_, .f32⟩
  | 84 => ⟨S4194304x8, .f32⟩
  | 85 => ⟨S4194304x8, .f32⟩
  | 86 => ⟨S4194304x8, .f32⟩
  | 87 => ⟨S4194304x8, .f32⟩
  | 88 => ⟨S4194304x1, .f32⟩
  | 89 => ⟨S4194304x1, .f32⟩
  | 90 => ⟨S4194304x1, .f32⟩
  | 91 => ⟨S4194304x1, .f32⟩
  | 92 => ⟨S4194304x1, .f32⟩
  | 93 => ⟨S4194304x1, .f32⟩
  | 94 => ⟨S4194304x16, .f32⟩
  | 95 => ⟨S4194304x7, .f32⟩
  | 96 => ⟨S4194304x23, .f32⟩
  | 97 => ⟨S4194304x8, .f32⟩
  | 98 => ⟨S4194304x16, .f32⟩
  | 99 => ⟨S4194304x7, .f32⟩
  | 100 => ⟨S4194304x23, .f32⟩
  | 101 => ⟨S_, .f32⟩
  | 102 => ⟨S4194304x1, .f32⟩
  | 103 => ⟨S4194304x1, .f32⟩
  | 104 => ⟨S4194304x1, .f32⟩
  | 105 => ⟨S4194304x8, .f32⟩
  | 106 => ⟨S4194304x8, .f32⟩
  | 107 => ⟨S4194304x8, .f32⟩
  | 108 => ⟨S_, .f32⟩
  | 109 => ⟨S4194304x8, .f32⟩
  | 110 => ⟨S4194304x8, .f32⟩
  | 111 => ⟨S4194304x8, .f32⟩
  | 112 => ⟨S4194304x8, .f32⟩
  | 113 => ⟨S4194304x8, .f32⟩
  | 114 => ⟨S_, .f32⟩
  | 115 => ⟨S4194304x8, .f32⟩
  | 116 => ⟨S4194304x8, .f32⟩
  | 117 => ⟨S4194304x8, .f32⟩
  | 118 => ⟨S4194304x8, .f32⟩
  | 119 => ⟨S4194304x16, .f32⟩
  | 120 => ⟨S4194304x7, .f32⟩
  | 121 => ⟨S4194304x23, .f32⟩
  | 122 => ⟨S4194304x23, .f32⟩
  | 123 => ⟨S4194304x23, .f32⟩
  | 124 => ⟨S4194304x23, .f32⟩
  | 125 => ⟨S_, .f32⟩
  | 126 => ⟨S4194304x23, .f32⟩
  | 127 => ⟨S4194304x23, .f32⟩
  | _ => ⟨S4194304x8, .f32⟩

abbrev hbmTy0_2 (i : Nat) : BufTy := match i % 128 with
  | 0 => ⟨S4194304x23, .f32⟩
  | 1 => ⟨S4194304x23, .f32⟩
  | 2 => ⟨S4194304x23, .f32⟩
  | 3 => ⟨S_, .f32⟩
  | 4 => ⟨S4194304x23, .f32⟩
  | 5 => ⟨S4194304x23, .f32⟩
  | 6 => ⟨S4194304x23, .f32⟩
  | 7 => ⟨S4194304x23, .f32⟩
  | 8 => ⟨S4194304x32, .f32⟩
  | _ => ⟨S4194304x8, .f32⟩

abbrev hbmTy (i : Nat) : BufTy := match i / 128 with
  | 0 => hbmTy0_0 i
  | 1 => hbmTy0_1 i
  | 2 => hbmTy0_2 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_2 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_3 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_4 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_5 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_7 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_8 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_9 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_10 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_11 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_12 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_13 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_14 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_cst_15 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_cst_16 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_cst_17 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_cst_18 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_19 : Ref sig .tc := ⟨.hbm, 192, rfl⟩
abbrev main_v171 : Ref sig .tc := ⟨.hbm, 193, rfl⟩
abbrev main_v172 : Ref sig .tc := ⟨.hbm, 194, rfl⟩
abbrev main_cst_20 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_cst_21 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_cst_22 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_cst_23 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_cst_24 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_cst_25 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_cst_26 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_cst_27 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩

abbrev nD : Nat := 1
abbrev τ : Topo := Topo.v7x

variable {F : FTy → Type} [FloatOps F]

class Facts₀ : Prop where
  slices_S4194304x8_S4194304x1_0_0 : S4194304x8.Slices ![0, 0] S4194304x1
  bcast_S_S4194304x1 : S_.BroadcastsInDim S4194304x1 (![] : Fin 0 → Fin S4194304x1.rank)
  slices_S4194304x8_S4194304x1_0_1 : S4194304x8.Slices ![0, 1] S4194304x1
  slices_S4194304x8_S4194304x1_0_2 : S4194304x8.Slices ![0, 2] S4194304x1
  slices_S4194304x8_S4194304x1_0_3 : S4194304x8.Slices ![0, 3] S4194304x1
  slices_S4194304x8_S4194304x1_0_4 : S4194304x8.Slices ![0, 4] S4194304x1
  slices_S4194304x8_S4194304x1_0_5 : S4194304x8.Slices ![0, 5] S4194304x1
  slices_S4194304x8_S4194304x1_0_6 : S4194304x8.Slices ![0, 6] S4194304x1
  slices_S4194304x8_S4194304x1_0_7 : S4194304x8.Slices ![0, 7] S4194304x1
  concatenates_S4194304x1_S4194304x1_S4194304x1_S4194304x1_S4194304x1_S4194304x1_S4194304x1_S4194304x1_S4194304x8_d1 : Shape.Concatenates [S4194304x1, S4194304x1, S4194304x1, S4194304x1, S4194304x1, S4194304x1, S4194304x1, S4194304x1] S4194304x8 1
  bcast_S4194304x1_S4194304x8_0_1 : S4194304x1.BroadcastsInDim S4194304x8 (![0, 1] : Fin 2 → Fin S4194304x8.rank)
  bcast_S_S4194304x8 : S_.BroadcastsInDim S4194304x8 (![] : Fin 0 → Fin S4194304x8.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1
  concatenates_S4194304x1_S4194304x1_S4194304x1_S4194304x1_S4194304x1_S4194304x1_S4194304x1_S4194304x7_d1 : Shape.Concatenates [S4194304x1, S4194304x1, S4194304x1, S4194304x1, S4194304x1, S4194304x1, S4194304x1] S4194304x7 1
  concatenates_S4194304x16_S4194304x7_S4194304x23_d1 : Shape.Concatenates [S4194304x16, S4194304x7] S4194304x23 1
  bcast_S4194304x1_S4194304x23_0_1 : S4194304x1.BroadcastsInDim S4194304x23 (![0, 1] : Fin 2 → Fin S4194304x23.rank)
  bcast_S_S4194304x23 : S_.BroadcastsInDim S4194304x23 (![] : Fin 0 → Fin S4194304x23.rank)
  concatenates_S4194304x1_S4194304x8_S4194304x23_S4194304x32_d1 : Shape.Concatenates [S4194304x1, S4194304x8, S4194304x23] S4194304x32 1

variable [Facts₀]

class Facts : Prop extends Facts₀ where

variable [Facts]
-- ==== Proof.LibRowBlock.lean ====
/-
  A block of consecutive rows of a matrix, and the layout operations that work row by row.

  Every operation here acts on a matrix `[N, k]` one row at a time: the pointwise arithmetic, a slice of one
  column, a column broadcast along the rows, a splat constant, a concatenation of columns, a reversal of the
  columns. So taking rows `b·n … b·n + n − 1` of the result is the same operation applied to those rows of the
  operands. That is what lets a program over the whole `[N, k]` array be compared, block of rows by block of rows, with
  a program over `[n, k]` blocks. Also here: a reversal of a concatenation of eight columns is the concatenation in
  the opposite order, and a concatenation of a block of sixteen columns with a block of seven is the concatenation of
  the twenty-three.
-/
import Idealize.ShloMosaic.Lib.Pipeline.Value
import Idealize.ShloMosaic.Lib.ValueIdx
import Idealize.ShloMosaic.Lib.ValueLayout

namespace RowBlock

open Idealize.ShloMosaic Idealize.ShloMosaic.ValueIdx

variable {α : Type}

/-- Rows `b·n, …, b·n + n − 1` of an `[N, k]` matrix, as an `[n, k]` matrix. -/
def rows {N k : Nat} (n b : Nat) (hb : b * n + n ≤ N) (v : (⟨2, ![N, k]⟩ : Shape).Idx → α) :
    (⟨2, ![n, k]⟩ : Shape).Idx → α :=
  fun i => v (ix2 ⟨b * n + (i 0).val, by have := idx2_lt0 i; omega⟩ ⟨(i 1).val, idx2_lt1 i⟩)

/-- Row `p` of the block is row `b·n + p` of the matrix. -/
theorem rows_apply {N k : Nat} (n b : Nat) (hb : b * n + n ≤ N) (v : (⟨2, ![N, k]⟩ : Shape).Idx → α)
    (p : Fin n) (c : Fin k) :
    rows n b hb v (ix2 p c) = v (ix2 ⟨b * n + p.val, by have := p.isLt; omega⟩ c) := rfl

section Pointwise
variable {F : FTy → Type} [FloatOps F] {φ : FTy} {N k : Nat} (n b : Nat) (hb : b * n + n ≤ N)

/-- The rows of a sum are the sum of the rows. -/
theorem rows_addf (x y : FVec F ⟨2, ![N, k]⟩ φ) : rows n b hb (addf x y) = addf (rows n b hb x) (rows n b hb y) := rfl
/-- The rows of a difference are the difference of the rows. -/
theorem rows_subf (x y : FVec F ⟨2, ![N, k]⟩ φ) : rows n b hb (subf x y) = subf (rows n b hb x) (rows n b hb y) := rfl
/-- The rows of a product are the product of the rows. -/
theorem rows_mulf (x y : FVec F ⟨2, ![N, k]⟩ φ) : rows n b hb (mulf x y) = mulf (rows n b hb x) (rows n b hb y) := rfl

/-- The rows of a scalar constant broadcast over the matrix are the constant splat over the block. -/
theorem rows_const (w : BitVec φ.bits) (dims : Fin 0 → Fin 2) (h : (⟨0, ![]⟩ : Shape).BroadcastsInDim ⟨2, ![N, k]⟩ dims) :
    rows n b hb (broadcastInDim ⟨2, ![N, k]⟩ dims h (constant (F := F) ⟨0, ![]⟩ φ w))
      = broadcast ⟨2, ![n, k]⟩ (Scalar.ofBits (F := F) φ w) := rfl

end Pointwise

section Layout
variable {N k : Nat} (n b : Nat) (hb : b * n + n ≤ N)

/-- The rows of column `c` are column `c` of the rows. -/
theorem rows_col (c : Nat) (v : (⟨2, ![N, k]⟩ : Shape).Idx → α)
    (h : (⟨2, ![N, k]⟩ : Shape).Slices ![0, c] ⟨2, ![N, 1]⟩) (h' : (⟨2, ![n, k]⟩ : Shape).Slices ![0, c] ⟨2, ![n, 1]⟩) :
    rows n b hb (extractStridedSlice ⟨2, ![N, 1]⟩ ![0, c] v h)
      = extractStridedSlice ⟨2, ![n, 1]⟩ ![0, c] (rows n b hb v) h' := by
  funext i
  obtain ⟨p, z, rfl⟩ : ∃ (p : Fin n) (z : Fin 1), i = ix2 p z := ⟨i 0, i 1, eq_ix2 i⟩
  have hc : c + z.val < k := by have h1 : c + 1 ≤ k := h.2 1; have := z.isLt; omega
  rw [rows_apply]
  rw [extractStridedSlice_apply ![0, c] v h _ (ix2 ⟨b * n + p.val, by have := p.isLt; omega⟩ ⟨c + z.val, hc⟩)
    (fun a => by match a with | ⟨0, _⟩ => exact (Nat.zero_add _).symm | ⟨1, _⟩ => rfl)]
  rw [extractStridedSlice_apply ![0, c] (rows n b hb v) h' _ (ix2 p ⟨c + z.val, hc⟩)
    (fun a => by match a with | ⟨0, _⟩ => exact (Nat.zero_add _).symm | ⟨1, _⟩ => rfl)]
  rfl

/-- The rows of a column broadcast along the rows are the broadcast of the rows of the column. -/
theorem rows_bcastCol (v : (⟨2, ![N, 1]⟩ : Shape).Idx → α) (dims : Fin 2 → Fin 2) (hd0 : dims 0 = 0) (hd1 : dims 1 = 1)
    (h : (⟨2, ![N, 1]⟩ : Shape).BroadcastsInDim ⟨2, ![N, k]⟩ dims) (h' : (⟨2, ![n, 1]⟩ : Shape).Broadcasts ⟨2, ![n, k]⟩) :
    rows n b hb (broadcastInDim ⟨2, ![N, k]⟩ dims h v) = broadcastTo ⟨2, ![n, k]⟩ (rows n b hb v) h' := by
  have hd : dims = ![0, 1] := by funext a; match a with | ⟨0, _⟩ => exact hd0 | ⟨1, _⟩ => exact hd1
  subst hd
  funext i
  obtain ⟨p, c, rfl⟩ : ∃ (p : Fin n) (c : Fin k), i = ix2 p c := ⟨i 0, i 1, eq_ix2 i⟩
  rw [rows_apply]
  rw [broadcastInDim_apply ![0, 1] h v _ (ix2 ⟨b * n + p.val, by have := p.isLt; omega⟩ 0)
    (fun a => by
      match a with
      | ⟨0, _⟩ =>
        by_cases h1 : N = 1
        · show b * n + p.val = if N = 1 then 0 else b * n + p.val
          rw [if_pos h1]; have := p.isLt; omega
        · show b * n + p.val = if N = 1 then 0 else b * n + p.val
          rw [if_neg h1]
      | ⟨1, _⟩ => rfl)]
  rw [broadcastTo_apply (rows n b hb v) h' _ (ix2 p 0)
    (fun a => by
      match a with
      | ⟨0, _⟩ =>
        by_cases h1 : n = 1
        · show p.val = if n = 1 then 0 else p.val
          rw [if_pos h1]; have := p.isLt; omega
        · show p.val = if n = 1 then 0 else p.val
          rw [if_neg h1]
      | ⟨1, _⟩ => rfl)]
  rfl

end Layout

section Columns
variable {α : Type}

/-- A concatenation depends on its pieces only: equal lists of pieces give equal concatenations (the side condition on
    the pieces' shapes carried along the equation). Stated for rewriting inside the list of pieces. -/
theorem concatenate_congr {t : Shape} {a : Fin t.rank} {xs xs' : List ((s : Shape) × (s.Idx → α))}
    {h : Shape.Concatenates (xs.map (·.1)) t a} (e : xs = xs') :
    concatenate t a xs h = concatenate t a xs' (e ▸ h) := by subst e; rfl

/-- A concatenation of `K` single columns read at row `p`, column `c`: column `c`'s entry in row `p`. -/
theorem cols_apply {n K : Nat} (f : Fin K → (⟨2, ![n, 1]⟩ : Shape).Idx → α)
    (h : Shape.Concatenates ((List.ofFn fun j : Fin K => (⟨⟨2, ![n, 1]⟩, f j⟩ : (s : Shape) × (s.Idx → α))).map (·.1)) ⟨2, ![n, K]⟩ 1)
    (p : Fin n) (c : Fin K) :
    concatenate ⟨2, ![n, K]⟩ 1 (List.ofFn fun j : Fin K => (⟨⟨2, ![n, 1]⟩, f j⟩ : (s : Shape) × (s.Idx → α))) h (ix2 p c)
      = f c (ix2 p 0) :=
  concatenate_ofFn_unit_apply 1 f h rfl rfl (ix2 p c) c rfl (ix2 p 0)
    (fun b hb => by match b with | ⟨0, _⟩ => rfl | ⟨1, _⟩ => exact absurd rfl hb)

/-- The rows of a concatenation of `K` single columns are the concatenation of the columns' rows. -/
theorem rows_cols {N K : Nat} (n b : Nat) (hb : b * n + n ≤ N) (f : Fin K → (⟨2, ![N, 1]⟩ : Shape).Idx → α)
    (h : Shape.Concatenates ((List.ofFn fun j : Fin K => (⟨⟨2, ![N, 1]⟩, f j⟩ : (s : Shape) × (s.Idx → α))).map (·.1)) ⟨2, ![N, K]⟩ 1)
    (h' : Shape.Concatenates ((List.ofFn fun j : Fin K => (⟨⟨2, ![n, 1]⟩, rows n b hb (f j)⟩ : (s : Shape) × (s.Idx → α))).map (·.1)) ⟨2, ![n, K]⟩ 1) :
    rows n b hb (concatenate ⟨2, ![N, K]⟩ 1 (List.ofFn fun j : Fin K => (⟨⟨2, ![N, 1]⟩, f j⟩ : (s : Shape) × (s.Idx → α))) h)
      = concatenate ⟨2, ![n, K]⟩ 1 (List.ofFn fun j : Fin K => (⟨⟨2, ![n, 1]⟩, rows n b hb (f j)⟩ : (s : Shape) × (s.Idx → α))) h' := by
  funext i
  obtain ⟨p, c, rfl⟩ : ∃ (p : Fin n) (c : Fin K), i = ix2 p c := ⟨i 0, i 1, eq_ix2 i⟩
  rw [rows_apply, cols_apply, cols_apply]
  rfl

/-- Eight single columns: the rows of their concatenation. -/
theorem rows_cols8 {N : Nat} (n b : Nat) (hb : b * n + n ≤ N) (a0 a1 a2 a3 a4 a5 a6 a7 : (⟨2, ![N, 1]⟩ : Shape).Idx → α)
    (h : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 8]⟩ 1)
    (h' : Shape.Concatenates [⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩] ⟨2, ![n, 8]⟩ 1) :
    rows n b hb (concatenate ⟨2, ![N, 8]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩] h)
      = concatenate ⟨2, ![n, 8]⟩ 1 [⟨⟨2, ![n, 1]⟩, rows n b hb a0⟩, ⟨⟨2, ![n, 1]⟩, rows n b hb a1⟩, ⟨⟨2, ![n, 1]⟩, rows n b hb a2⟩, ⟨⟨2, ![n, 1]⟩, rows n b hb a3⟩, ⟨⟨2, ![n, 1]⟩, rows n b hb a4⟩, ⟨⟨2, ![n, 1]⟩, rows n b hb a5⟩, ⟨⟨2, ![n, 1]⟩, rows n b hb a6⟩, ⟨⟨2, ![n, 1]⟩, rows n b hb a7⟩] h' :=
  rows_cols n b hb ![a0, a1, a2, a3, a4, a5, a6, a7] h h'

/-- Twenty-three single columns: the rows of their concatenation. -/
theorem rows_cols23 {N : Nat} (n b : Nat) (hb : b * n + n ≤ N) (a0 a1 a2 a3 a4 a5 a6 a7 a8 a9 a10 a11 a12 a13 a14 a15 a16 a17 a18 a19 a20 a21 a22 : (⟨2, ![N, 1]⟩ : Shape).Idx → α)
    (h : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 23]⟩ 1)
    (h' : Shape.Concatenates [⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩, ⟨2, ![n, 1]⟩] ⟨2, ![n, 23]⟩ 1) :
    rows n b hb (concatenate ⟨2, ![N, 23]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩, ⟨⟨2, ![N, 1]⟩, a8⟩, ⟨⟨2, ![N, 1]⟩, a9⟩, ⟨⟨2, ![N, 1]⟩, a10⟩, ⟨⟨2, ![N, 1]⟩, a11⟩, ⟨⟨2, ![N, 1]⟩, a12⟩, ⟨⟨2, ![N, 1]⟩, a13⟩, ⟨⟨2, ![N, 1]⟩, a14⟩, ⟨⟨2, ![N, 1]⟩, a15⟩, ⟨⟨2, ![N, 1]⟩, a16⟩, ⟨⟨2, ![N, 1]⟩, a17⟩, ⟨⟨2, ![N, 1]⟩, a18⟩, ⟨⟨2, ![N, 1]⟩, a19⟩, ⟨⟨2, ![N, 1]⟩, a20⟩, ⟨⟨2, ![N, 1]⟩, a21⟩, ⟨⟨2, ![N, 1]⟩, a22⟩] h)
      = concatenate ⟨2, ![n, 23]⟩ 1 [⟨⟨2, ![n, 1]⟩, rows n b hb a0⟩, ⟨⟨2, ![n, 1]⟩, rows n b hb a1⟩, ⟨⟨2, ![n, 1]⟩, rows n b hb a2⟩, ⟨⟨2, ![n, 1]⟩, rows n b hb a3⟩, ⟨⟨2, ![n, 1]⟩, rows n b hb a4⟩, ⟨⟨2, ![n, 1]⟩, rows n b hb a5⟩, ⟨⟨2, ![n, 1]⟩, rows n b hb a6⟩, ⟨⟨2, ![n, 1]⟩, rows n b hb a7⟩, ⟨⟨2, ![n, 1]⟩, rows n b hb a8⟩, ⟨⟨2, ![n, 1]⟩, rows n b hb a9⟩, ⟨⟨2, ![n, 1]⟩, rows n b hb a10⟩, ⟨⟨2, ![n, 1]⟩, rows n b hb a11⟩, ⟨⟨2, ![n, 1]⟩, rows n b hb a12⟩, ⟨⟨2, ![n, 1]⟩, rows n b hb a13⟩, ⟨⟨2, ![n, 1]⟩, rows n b hb a14⟩, ⟨⟨2, ![n, 1]⟩, rows n b hb a15⟩, ⟨⟨2, ![n, 1]⟩, rows n b hb a16⟩, ⟨⟨2, ![n, 1]⟩, rows n b hb a17⟩, ⟨⟨2, ![n, 1]⟩, rows n b hb a18⟩, ⟨⟨2, ![n, 1]⟩, rows n b hb a19⟩, ⟨⟨2, ![n, 1]⟩, rows n b hb a20⟩, ⟨⟨2, ![n, 1]⟩, rows n b hb a21⟩, ⟨⟨2, ![n, 1]⟩, rows n b hb a22⟩] h' :=
  rows_cols n b hb ![a0, a1, a2, a3, a4, a5, a6, a7, a8, a9, a10, a11, a12, a13, a14, a15, a16, a17, a18, a19, a20, a21, a22] h h'

/-- Reversing the columns of a concatenation of eight single columns gives the concatenation in the opposite order. -/
theorem reverse_cols8 {N : Nat} (axes : List (Fin 2)) (hax : axes = [1]) (a0 a1 a2 a3 a4 a5 a6 a7 : (⟨2, ![N, 1]⟩ : Shape).Idx → α)
    (h : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 8]⟩ 1)
    (h' : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 8]⟩ 1) :
    Host.reverse (s := ⟨2, ![N, 8]⟩) axes (concatenate ⟨2, ![N, 8]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩] h)
      = concatenate ⟨2, ![N, 8]⟩ 1 [⟨⟨2, ![N, 1]⟩, a7⟩, ⟨⟨2, ![N, 1]⟩, a6⟩, ⟨⟨2, ![N, 1]⟩, a5⟩, ⟨⟨2, ![N, 1]⟩, a4⟩, ⟨⟨2, ![N, 1]⟩, a3⟩, ⟨⟨2, ![N, 1]⟩, a2⟩, ⟨⟨2, ![N, 1]⟩, a1⟩, ⟨⟨2, ![N, 1]⟩, a0⟩] h' := by
  subst hax
  funext i
  obtain ⟨p, c, rfl⟩ : ∃ (p : Fin N) (c : Fin 8), i = ix2 p c := ⟨i 0, i 1, eq_ix2 i⟩
  have e : (fun a : Fin 2 => if a ∈ ([1] : List (Fin 2)) then ((ix2 p c : (⟨2, ![N, 8]⟩ : Shape).Idx) a).rev else (ix2 p c : (⟨2, ![N, 8]⟩ : Shape).Idx) a)
      = (ix2 p c.rev : (⟨2, ![N, 8]⟩ : Shape).Idx) := by
    funext a; match a with | ⟨0, _⟩ => rfl | ⟨1, _⟩ => rfl
  show concatenate ⟨2, ![N, 8]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩] h _ = _
  rw [e]
  refine (cols_apply ![a0, a1, a2, a3, a4, a5, a6, a7] h p c.rev).trans (Eq.trans ?_ (cols_apply ![a7, a6, a5, a4, a3, a2, a1, a0] h' p c).symm)
  fin_cases c <;> rfl

/-- A block of sixteen single columns followed by a block of seven is the concatenation of the twenty-three. -/
theorem cols16_cols7 {N : Nat} (a0 a1 a2 a3 a4 a5 a6 a7 a8 a9 a10 a11 a12 a13 a14 a15 b0 b1 b2 b3 b4 b5 b6 : (⟨2, ![N, 1]⟩ : Shape).Idx → α)
    (h1 : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 16]⟩ 1)
    (h2 : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 7]⟩ 1)
    (h : Shape.Concatenates [⟨2, ![N, 16]⟩, ⟨2, ![N, 7]⟩] ⟨2, ![N, 23]⟩ 1)
    (h' : Shape.Concatenates [⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩, ⟨2, ![N, 1]⟩] ⟨2, ![N, 23]⟩ 1) :
    concatenate ⟨2, ![N, 23]⟩ 1 [⟨⟨2, ![N, 16]⟩, concatenate ⟨2, ![N, 16]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩, ⟨⟨2, ![N, 1]⟩, a8⟩, ⟨⟨2, ![N, 1]⟩, a9⟩, ⟨⟨2, ![N, 1]⟩, a10⟩, ⟨⟨2, ![N, 1]⟩, a11⟩, ⟨⟨2, ![N, 1]⟩, a12⟩, ⟨⟨2, ![N, 1]⟩, a13⟩, ⟨⟨2, ![N, 1]⟩, a14⟩, ⟨⟨2, ![N, 1]⟩, a15⟩] h1⟩,
        ⟨⟨2, ![N, 7]⟩, concatenate ⟨2, ![N, 7]⟩ 1 [⟨⟨2, ![N, 1]⟩, b0⟩, ⟨⟨2, ![N, 1]⟩, b1⟩, ⟨⟨2, ![N, 1]⟩, b2⟩, ⟨⟨2, ![N, 1]⟩, b3⟩, ⟨⟨2, ![N, 1]⟩, b4⟩, ⟨⟨2, ![N, 1]⟩, b5⟩, ⟨⟨2, ![N, 1]⟩, b6⟩] h2⟩] h
      = concatenate ⟨2, ![N, 23]⟩ 1 [⟨⟨2, ![N, 1]⟩, a0⟩, ⟨⟨2, ![N, 1]⟩, a1⟩, ⟨⟨2, ![N, 1]⟩, a2⟩, ⟨⟨2, ![N, 1]⟩, a3⟩, ⟨⟨2, ![N, 1]⟩, a4⟩, ⟨⟨2, ![N, 1]⟩, a5⟩, ⟨⟨2, ![N, 1]⟩, a6⟩, ⟨⟨2, ![N, 1]⟩, a7⟩, ⟨⟨2, ![N, 1]⟩, a8⟩, ⟨⟨2, ![N, 1]⟩, a9⟩, ⟨⟨2, ![N, 1]⟩, a10⟩, ⟨⟨2, ![N, 1]⟩, a11⟩, ⟨⟨2, ![N, 1]⟩, a12⟩, ⟨⟨2, ![N, 1]⟩, a13⟩, ⟨⟨2, ![N, 1]⟩, a14⟩, ⟨⟨2, ![N, 1]⟩, a15⟩, ⟨⟨2, ![N, 1]⟩, b0⟩, ⟨⟨2, ![N, 1]⟩, b1⟩, ⟨⟨2, ![N, 1]⟩, b2⟩, ⟨⟨2, ![N, 1]⟩, b3⟩, ⟨⟨2, ![N, 1]⟩, b4⟩, ⟨⟨2, ![N, 1]⟩, b5⟩, ⟨⟨2, ![N, 1]⟩, b6⟩] h' := by
  funext i
  obtain ⟨p, c, rfl⟩ : ∃ (p : Fin N) (c : Fin 23), i = ix2 p c := ⟨i 0, i 1, eq_ix2 i⟩
  refine Eq.trans ?_ (cols_apply ![a0, a1, a2, a3, a4, a5, a6, a7, a8, a9, a10, a11, a12, a13, a14, a15, b0, b1, b2, b3, b4, b5, b6] h' p c).symm
  by_cases hc : c.val < 16
  · refine (concatenate_pair_apply_left (t := ⟨2, ![N, 23]⟩) (s₁ := ⟨2, ![N, 16]⟩) (s₂ := ⟨2, ![N, 7]⟩) 1 _ _ h (ix2 p c) rfl (ix2 p ⟨c.val, hc⟩)
      (fun b => by match b with | ⟨0, _⟩ => rfl | ⟨1, _⟩ => rfl)).trans ?_
    refine (cols_apply ![a0, a1, a2, a3, a4, a5, a6, a7, a8, a9, a10, a11, a12, a13, a14, a15] h1 p ⟨c.val, hc⟩).trans ?_
    fin_cases c <;> first | rfl | (exfalso; revert hc; decide)
  · have hc' : c.val - 16 < 7 := by have := c.isLt; omega
    refine (concatenate_pair_apply_right (t := ⟨2, ![N, 23]⟩) (s₁ := ⟨2, ![N, 16]⟩) (s₂ := ⟨2, ![N, 7]⟩) 1 _ _ h (ix2 p c) rfl rfl (ix2 p ⟨c.val - 16, hc'⟩)
      (fun b hb => by match b with | ⟨0, _⟩ => rfl | ⟨1, _⟩ => exact absurd rfl hb)
      (by show c.val - 16 + 16 = c.val; omega)).trans ?_
    refine (cols_apply ![b0, b1, b2, b3, b4, b5, b6] h2 p ⟨c.val - 16, hc'⟩).trans ?_
    fin_cases c <;> first | rfl | (exfalso; revert hc; decide)

/-- The rows of a column, a block of eight columns and a block of twenty-three laid side by side are the three pieces'
    rows laid side by side. -/
theorem rows_1_8_23 {N : Nat} (n b : Nat) (hb : b * n + n ≤ N) (s : (⟨2, ![N, 1]⟩ : Shape).Idx → α)
    (e : (⟨2, ![N, 8]⟩ : Shape).Idx → α) (m : (⟨2, ![N, 23]⟩ : Shape).Idx → α)
    (h : Shape.Concatenates [⟨2, ![N, 1]⟩, ⟨2, ![N, 8]⟩, ⟨2, ![N, 23]⟩] ⟨2, ![N, 32]⟩ 1)
    (h' : Shape.Concatenates [⟨2, ![n, 1]⟩, ⟨2, ![n, 8]⟩, ⟨2, ![n, 23]⟩] ⟨2, ![n, 32]⟩ 1) :
    rows n b hb (concatenate ⟨2, ![N, 32]⟩ 1 [⟨⟨2, ![N, 1]⟩, s⟩, ⟨⟨2, ![N, 8]⟩, e⟩, ⟨⟨2, ![N, 23]⟩, m⟩] h)
      = concatenate ⟨2, ![n, 32]⟩ 1 [⟨⟨2, ![n, 1]⟩, rows n b hb s⟩, ⟨⟨2, ![n, 8]⟩, rows n b hb e⟩, ⟨⟨2, ![n, 23]⟩, rows n b hb m⟩] h' := by
  funext i
  obtain ⟨p, c, rfl⟩ : ∃ (p : Fin n) (c : Fin 32), i = ix2 p c := ⟨i 0, i 1, eq_ix2 i⟩
  have hp : b * n + p.val < N := by have := p.isLt; omega
  show concatenate ⟨2, ![N, 32]⟩ 1 [⟨⟨2, ![N, 1]⟩, s⟩, ⟨⟨2, ![N, 8]⟩, e⟩, ⟨⟨2, ![N, 23]⟩, m⟩] h (ix2 ⟨b * n + p.val, hp⟩ c) = _
  by_cases h0 : c.val < 1
  ·
    refine (concatenate_apply_piece (t := ⟨2, ![N, 32]⟩) 1 [⟨⟨2, ![N, 1]⟩, s⟩, ⟨⟨2, ![N, 8]⟩, e⟩, ⟨⟨2, ![N, 23]⟩, m⟩] h (ix2 ⟨b * n + p.val, hp⟩ c) 0 (by simp) ⟨2, ![N, 1]⟩ s rfl rfl 0 rfl (ix2 ⟨b * n + p.val, hp⟩ ⟨c.val, h0⟩)
      (fun a ha => by match a with | ⟨0, _⟩ => rfl | ⟨1, _⟩ => exact absurd rfl ha) (by show 0 + c.val = c.val; omega)).trans ?_
    refine Eq.trans ?_ (concatenate_apply_piece (t := ⟨2, ![n, 32]⟩) 1 [⟨⟨2, ![n, 1]⟩, rows n b hb s⟩, ⟨⟨2, ![n, 8]⟩, rows n b hb e⟩, ⟨⟨2, ![n, 23]⟩, rows n b hb m⟩] h' (ix2 p c) 0 (by simp) ⟨2, ![n, 1]⟩ (rows n b hb s) rfl rfl 0 rfl (ix2 p ⟨c.val, h0⟩)
      (fun a ha => by match a with | ⟨0, _⟩ => rfl | ⟨1, _⟩ => exact absurd rfl ha) (by show 0 + c.val = c.val; omega)).symm
    rfl
  by_cases h1 : c.val < 9
  · have h8 : c.val - 1 < 8 := by omega
    refine (concatenate_apply_piece (t := ⟨2, ![N, 32]⟩) 1 [⟨⟨2, ![N, 1]⟩, s⟩, ⟨⟨2, ![N, 8]⟩, e⟩, ⟨⟨2, ![N, 23]⟩, m⟩] h (ix2 ⟨b * n + p.val, hp⟩ c) 1 (by simp) ⟨2, ![N, 8]⟩ e rfl rfl 1 rfl (ix2 ⟨b * n + p.val, hp⟩ ⟨c.val - 1, h8⟩)
      (fun a ha => by match a with | ⟨0, _⟩ => rfl | ⟨1, _⟩ => exact absurd rfl ha) (by show 1 + (c.val - 1) = c.val; omega)).trans ?_
    refine Eq.trans ?_ (concatenate_apply_piece (t := ⟨2, ![n, 32]⟩) 1 [⟨⟨2, ![n, 1]⟩, rows n b hb s⟩, ⟨⟨2, ![n, 8]⟩, rows n b hb e⟩, ⟨⟨2, ![n, 23]⟩, rows n b hb m⟩] h' (ix2 p c) 1 (by simp) ⟨2, ![n, 8]⟩ (rows n b hb e) rfl rfl 1 rfl (ix2 p ⟨c.val - 1, h8⟩)
      (fun a ha => by match a with | ⟨0, _⟩ => rfl | ⟨1, _⟩ => exact absurd rfl ha) (by show 1 + (c.val - 1) = c.val; omega)).symm
    rfl
  · have h23 : c.val - 9 < 23 := by have := c.isLt; omega
    refine (concatenate_apply_piece (t := ⟨2, ![N, 32]⟩) 1 [⟨⟨2, ![N, 1]⟩, s⟩, ⟨⟨2, ![N, 8]⟩, e⟩, ⟨⟨2, ![N, 23]⟩, m⟩] h (ix2 ⟨b * n + p.val, hp⟩ c) 2 (by simp) ⟨2, ![N, 23]⟩ m rfl rfl 9 rfl (ix2 ⟨b * n + p.val, hp⟩ ⟨c.val - 9, h23⟩)
      (fun a ha => by match a with | ⟨0, _⟩ => rfl | ⟨1, _⟩ => exact absurd rfl ha) (by show 9 + (c.val - 9) = c.val; omega)).trans ?_
    refine Eq.trans ?_ (concatenate_apply_piece (t := ⟨2, ![n, 32]⟩) 1 [⟨⟨2, ![n, 1]⟩, rows n b hb s⟩, ⟨⟨2, ![n, 8]⟩, rows n b hb e⟩, ⟨⟨2, ![n, 23]⟩, rows n b hb m⟩] h' (ix2 p c) 2 (by simp) ⟨2, ![n, 23]⟩ (rows n b hb m) rfl rfl 9 rfl (ix2 p ⟨c.val - 9, h23⟩)
      (fun a ha => by match a with | ⟨0, _⟩ => rfl | ⟨1, _⟩ => exact absurd rfl ha) (by show 9 + (c.val - 9) = c.val; omega)).symm
    rfl

end Columns

end RowBlock
-- ==== Proof.Bridge.lean ====
/-
  The kernel's body and the reference are one computation, row by row.

  The reference computes, from the whole `[4194304, 8]` array of bit pulses, the `[4194304, 32]` array of float32 bit
  pulses by 264 host operations, each of which acts on every row by itself: slices of single columns, splat constants,
  the gate arithmetic (products, sums, differences), broadcasts of a column along the row, concatenations of columns and
  one reversal of eight columns. The kernel's body applies the same operations, in the same order, to a block of 4096
  rows. So rows `4096·t … 4096·t + 4095` of the reference's result are the body's result on those rows of the
  argument (`rows_result`): the block of rows is pushed through the reference's stages one operation at a time, the
  reversal of the adder's eight sum bits and the two-level concatenation of the mantissa's twenty-three columns are
  rewritten to the kernel's flat forms, and what is left is the body's own term. No arithmetic law is used: the two
  sides are the same expression of the same entries.
-/
import proofs.«157958_j23407571764186_2_alg».proof.Proof.Gen.KernelIdeal.Skeleton
import proofs.«157958_j23407571764186_2_alg».proof.Proof.RefStages
import proofs.«157958_j23407571764186_2_alg».proof.Proof.LibRowBlock

noncomputable section

namespace Cert.Bridge

open Idealize.ShloMosaic RowBlock

variable {F : FTy → Type} [FloatOps F]

attribute [local congr] RowBlock.concatenate_congr

/-- What the kernel's body stores into its output block, as a function of the input block it loads. -/
def body (x0 : Vec F Cert.KernelIdeal.S4096x8 .f32) : Vec F Cert.KernelIdeal.S4096x32 .f32 :=
  Cert.KernelIdeal.Gen.k0_pay1 (Cert.KernelIdeal.Gen.k0_pay4 x0) (Cert.KernelIdeal.Gen.k0_pay14 x0) (Cert.KernelIdeal.Gen.k0_pay57 (Cert.KernelIdeal.Gen.k0_pay2 (F := F)) (Cert.KernelIdeal.Gen.k0_pay9 x0) (Cert.KernelIdeal.Gen.k0_pay10 x0) (Cert.KernelIdeal.Gen.k0_pay11 x0)) (Cert.KernelIdeal.Gen.k0_pay58 (Cert.KernelIdeal.Gen.k0_pay2 (F := F))) (Cert.KernelIdeal.Gen.k0_pay59 (Cert.KernelIdeal.Gen.k0_pay12 x0) (Cert.KernelIdeal.Gen.k0_pay13 x0)) (Cert.KernelIdeal.Gen.k0_pay60 (Cert.KernelIdeal.Gen.k0_pay2 (F := F)) (Cert.KernelIdeal.Gen.k0_pay3 (F := F)) (Cert.KernelIdeal.Gen.k0_pay9 x0) (Cert.KernelIdeal.Gen.k0_pay10 x0) (Cert.KernelIdeal.Gen.k0_pay12 x0) (Cert.KernelIdeal.Gen.k0_pay13 x0) (Cert.KernelIdeal.Gen.k0_pay14 x0) (Cert.KernelIdeal.Gen.k0_pay21 x0) (Cert.KernelIdeal.Gen.k0_pay26 (Cert.KernelIdeal.Gen.k0_pay22 x0) (Cert.KernelIdeal.Gen.k0_pay23 x0) (Cert.KernelIdeal.Gen.k0_pay24 (F := F))) (Cert.KernelIdeal.Gen.k0_pay31 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay36 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay43 (Cert.KernelIdeal.Gen.k0_pay37 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay38 (Cert.KernelIdeal.Gen.k0_pay15 x0)) (Cert.KernelIdeal.Gen.k0_pay39 (Cert.KernelIdeal.Gen.k0_pay16 (F := F))) (Cert.KernelIdeal.Gen.k0_pay40 (Cert.KernelIdeal.Gen.k0_pay15 x0) (Cert.KernelIdeal.Gen.k0_pay16 (F := F))) (Cert.KernelIdeal.Gen.k0_pay41 (F := F))) (Cert.KernelIdeal.Gen.k0_pay48 (Cert.KernelIdeal.Gen.k0_pay15 x0) (Cert.KernelIdeal.Gen.k0_pay16 (F := F)) (Cert.KernelIdeal.Gen.k0_pay37 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay38 (Cert.KernelIdeal.Gen.k0_pay15 x0)) (Cert.KernelIdeal.Gen.k0_pay39 (Cert.KernelIdeal.Gen.k0_pay16 (F := F))) (Cert.KernelIdeal.Gen.k0_pay40 (Cert.KernelIdeal.Gen.k0_pay15 x0) (Cert.KernelIdeal.Gen.k0_pay16 (F := F))) (Cert.KernelIdeal.Gen.k0_pay41 (F := F))) (Cert.KernelIdeal.Gen.k0_pay53 (Cert.KernelIdeal.Gen.k0_pay15 x0) (Cert.KernelIdeal.Gen.k0_pay16 (F := F)) (Cert.KernelIdeal.Gen.k0_pay37 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay38 (Cert.KernelIdeal.Gen.k0_pay15 x0)) (Cert.KernelIdeal.Gen.k0_pay39 (Cert.KernelIdeal.Gen.k0_pay16 (F := F))) (Cert.KernelIdeal.Gen.k0_pay40 (Cert.KernelIdeal.Gen.k0_pay15 x0) (Cert.KernelIdeal.Gen.k0_pay16 (F := F))) (Cert.KernelIdeal.Gen.k0_pay41 (F := F))) (Cert.KernelIdeal.Gen.k0_pay54 (Cert.KernelIdeal.Gen.k0_pay15 x0) (Cert.KernelIdeal.Gen.k0_pay16 (F := F)) (Cert.KernelIdeal.Gen.k0_pay37 (Cert.KernelIdeal.Gen.k0_pay15 x0) (Cert.KernelIdeal.Gen.k0_pay16 (F := F)) (Cert.KernelIdeal.Gen.k0_pay22 x0) (Cert.KernelIdeal.Gen.k0_pay23 x0) (Cert.KernelIdeal.Gen.k0_pay24 (F := F))) (Cert.KernelIdeal.Gen.k0_pay38 (Cert.KernelIdeal.Gen.k0_pay15 x0)) (Cert.KernelIdeal.Gen.k0_pay39 (Cert.KernelIdeal.Gen.k0_pay16 (F := F))) (Cert.KernelIdeal.Gen.k0_pay40 (Cert.KernelIdeal.Gen.k0_pay15 x0) (Cert.KernelIdeal.Gen.k0_pay16 (F := F))) (Cert.KernelIdeal.Gen.k0_pay41 (F := F))) (Cert.KernelIdeal.Gen.k0_pay55 (Cert.KernelIdeal.Gen.k0_pay15 x0) (Cert.KernelIdeal.Gen.k0_pay16 (F := F)))) (Cert.KernelIdeal.Gen.k0_pay61 (Cert.KernelIdeal.Gen.k0_pay2 (F := F)) (Cert.KernelIdeal.Gen.k0_pay9 x0) (Cert.KernelIdeal.Gen.k0_pay10 x0) (Cert.KernelIdeal.Gen.k0_pay11 x0))

set_option maxRecDepth 65536 in
set_option maxHeartbeats 4000000 in
/-- Rows `4096·t … 4096·t + 4095` of the reference's result are the kernel's body on those rows of the argument. -/
theorem rows_result (t : Nat) (ht : t * 4096 + 4096 ≤ 4194304)
    (x : (⟨Cert.ReferenceIdeal.S4194304x8, .f32⟩ : BufTy).Contents (Elt F)) :
    rows 4096 t ht (Cert.ReferenceIdeal.Stages.val_main_v234 (F := F) x) = body (F := F) (rows 4096 t ht x) := by
  unfold body
  simp only [Cert.KernelIdeal.Gen.k0_pay1, Cert.KernelIdeal.Gen.k0_pay2, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61]
  simp only [Cert.ReferenceIdeal.Stages.val_main_v0, Cert.ReferenceIdeal.Stages.val_main_cst, Cert.ReferenceIdeal.Stages.val_main_v1, Cert.ReferenceIdeal.Stages.val_main_cst_0, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_v7, Cert.ReferenceIdeal.Stages.val_main_v8, Cert.ReferenceIdeal.Stages.val_main_v9, Cert.ReferenceIdeal.Stages.val_main_v10, Cert.ReferenceIdeal.Stages.val_main_v11, Cert.ReferenceIdeal.Stages.val_main_v12, Cert.ReferenceIdeal.Stages.val_main_v13, Cert.ReferenceIdeal.Stages.val_main_v14, Cert.ReferenceIdeal.Stages.val_main_v15, Cert.ReferenceIdeal.Stages.val_main_v16, Cert.ReferenceIdeal.Stages.val_main_v17, Cert.ReferenceIdeal.Stages.val_main_v18, Cert.ReferenceIdeal.Stages.val_main_v19, Cert.ReferenceIdeal.Stages.val_main_cst_1, Cert.ReferenceIdeal.Stages.val_main_v20, Cert.ReferenceIdeal.Stages.val_main_v21, Cert.ReferenceIdeal.Stages.val_main_v22, Cert.ReferenceIdeal.Stages.val_main_v23, Cert.ReferenceIdeal.Stages.val_main_v24, Cert.ReferenceIdeal.Stages.val_main_v25, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_cst_2, Cert.ReferenceIdeal.Stages.val_main_v32, Cert.ReferenceIdeal.Stages.val_main_v33, Cert.ReferenceIdeal.Stages.val_main_v34, Cert.ReferenceIdeal.Stages.val_main_v35, Cert.ReferenceIdeal.Stages.val_main_cst_3, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_cst_4, Cert.ReferenceIdeal.Stages.val_main_v41, Cert.ReferenceIdeal.Stages.val_main_v42, Cert.ReferenceIdeal.Stages.val_main_v43, Cert.ReferenceIdeal.Stages.val_main_v44, Cert.ReferenceIdeal.Stages.val_main_v45, Cert.ReferenceIdeal.Stages.val_main_v46, Cert.ReferenceIdeal.Stages.val_main_v47, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_cst_5, Cert.ReferenceIdeal.Stages.val_main_v53, Cert.ReferenceIdeal.Stages.val_main_v54, Cert.ReferenceIdeal.Stages.val_main_v55, Cert.ReferenceIdeal.Stages.val_main_v56, Cert.ReferenceIdeal.Stages.val_main_v57, Cert.ReferenceIdeal.Stages.val_main_cst_6, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62, Cert.ReferenceIdeal.Stages.val_main_v63, Cert.ReferenceIdeal.Stages.val_main_v64, Cert.ReferenceIdeal.Stages.val_main_v65, Cert.ReferenceIdeal.Stages.val_main_v66, Cert.ReferenceIdeal.Stages.val_main_v67, Cert.ReferenceIdeal.Stages.val_main_v68, Cert.ReferenceIdeal.Stages.val_main_v69, Cert.ReferenceIdeal.Stages.val_main_cst_7, Cert.ReferenceIdeal.Stages.val_main_v70, Cert.ReferenceIdeal.Stages.val_main_v71, Cert.ReferenceIdeal.Stages.val_main_v72, Cert.ReferenceIdeal.Stages.val_main_v73, Cert.ReferenceIdeal.Stages.val_main_v74, Cert.ReferenceIdeal.Stages.val_main_cst_8, Cert.ReferenceIdeal.Stages.val_main_v75, Cert.ReferenceIdeal.Stages.val_main_v76, Cert.ReferenceIdeal.Stages.val_main_v77, Cert.ReferenceIdeal.Stages.val_main_v78, Cert.ReferenceIdeal.Stages.val_main_v79, Cert.ReferenceIdeal.Stages.val_main_v80, Cert.ReferenceIdeal.Stages.val_main_v81, Cert.ReferenceIdeal.Stages.val_main_v82, Cert.ReferenceIdeal.Stages.val_main_v83, Cert.ReferenceIdeal.Stages.val_main_v84, Cert.ReferenceIdeal.Stages.val_main_v85, Cert.ReferenceIdeal.Stages.val_main_v86, Cert.ReferenceIdeal.Stages.val_main_cst_9, Cert.ReferenceIdeal.Stages.val_main_v87, Cert.ReferenceIdeal.Stages.val_main_v88, Cert.ReferenceIdeal.Stages.val_main_v89, Cert.ReferenceIdeal.Stages.val_main_v90, Cert.ReferenceIdeal.Stages.val_main_v91, Cert.ReferenceIdeal.Stages.val_main_cst_10, Cert.ReferenceIdeal.Stages.val_main_v92, Cert.ReferenceIdeal.Stages.val_main_v93, Cert.ReferenceIdeal.Stages.val_main_v94, Cert.ReferenceIdeal.Stages.val_main_v95, Cert.ReferenceIdeal.Stages.val_main_v96, Cert.ReferenceIdeal.Stages.val_main_v97, Cert.ReferenceIdeal.Stages.val_main_v98, Cert.ReferenceIdeal.Stages.val_main_v99, Cert.ReferenceIdeal.Stages.val_main_v100, Cert.ReferenceIdeal.Stages.val_main_v101, Cert.ReferenceIdeal.Stages.val_main_v102, Cert.ReferenceIdeal.Stages.val_main_v103, Cert.ReferenceIdeal.Stages.val_main_cst_11, Cert.ReferenceIdeal.Stages.val_main_v104, Cert.ReferenceIdeal.Stages.val_main_v105, Cert.ReferenceIdeal.Stages.val_main_v106, Cert.ReferenceIdeal.Stages.val_main_v107, Cert.ReferenceIdeal.Stages.val_main_v108, Cert.ReferenceIdeal.Stages.val_main_cst_12, Cert.ReferenceIdeal.Stages.val_main_v109, Cert.ReferenceIdeal.Stages.val_main_v110, Cert.ReferenceIdeal.Stages.val_main_v111, Cert.ReferenceIdeal.Stages.val_main_v112, Cert.ReferenceIdeal.Stages.val_main_v113, Cert.ReferenceIdeal.Stages.val_main_v114, Cert.ReferenceIdeal.Stages.val_main_v115, Cert.ReferenceIdeal.Stages.val_main_v116, Cert.ReferenceIdeal.Stages.val_main_v117, Cert.ReferenceIdeal.Stages.val_main_v118, Cert.ReferenceIdeal.Stages.val_main_v119, Cert.ReferenceIdeal.Stages.val_main_v120, Cert.ReferenceIdeal.Stages.val_main_cst_13, Cert.ReferenceIdeal.Stages.val_main_v121, Cert.ReferenceIdeal.Stages.val_main_v122, Cert.ReferenceIdeal.Stages.val_main_v123, Cert.ReferenceIdeal.Stages.val_main_v124, Cert.ReferenceIdeal.Stages.val_main_v125, Cert.ReferenceIdeal.Stages.val_main_cst_14, Cert.ReferenceIdeal.Stages.val_main_v126, Cert.ReferenceIdeal.Stages.val_main_v127, Cert.ReferenceIdeal.Stages.val_main_v128, Cert.ReferenceIdeal.Stages.val_main_v129, Cert.ReferenceIdeal.Stages.val_main_v130, Cert.ReferenceIdeal.Stages.val_main_v131, Cert.ReferenceIdeal.Stages.val_main_v132, Cert.ReferenceIdeal.Stages.val_main_v133, Cert.ReferenceIdeal.Stages.val_main_v134, Cert.ReferenceIdeal.Stages.val_main_v135, Cert.ReferenceIdeal.Stages.val_main_v136, Cert.ReferenceIdeal.Stages.val_main_v137, Cert.ReferenceIdeal.Stages.val_main_cst_15, Cert.ReferenceIdeal.Stages.val_main_v138, Cert.ReferenceIdeal.Stages.val_main_v139, Cert.ReferenceIdeal.Stages.val_main_v140, Cert.ReferenceIdeal.Stages.val_main_v141, Cert.ReferenceIdeal.Stages.val_main_v142, Cert.ReferenceIdeal.Stages.val_main_cst_16, Cert.ReferenceIdeal.Stages.val_main_v143, Cert.ReferenceIdeal.Stages.val_main_v144, Cert.ReferenceIdeal.Stages.val_main_v145, Cert.ReferenceIdeal.Stages.val_main_v146, Cert.ReferenceIdeal.Stages.val_main_v147, Cert.ReferenceIdeal.Stages.val_main_v148, Cert.ReferenceIdeal.Stages.val_main_v149, Cert.ReferenceIdeal.Stages.val_main_v150, Cert.ReferenceIdeal.Stages.val_main_v151, Cert.ReferenceIdeal.Stages.val_main_v152, Cert.ReferenceIdeal.Stages.val_main_v153, Cert.ReferenceIdeal.Stages.val_main_v154, Cert.ReferenceIdeal.Stages.val_main_cst_17, Cert.ReferenceIdeal.Stages.val_main_v155, Cert.ReferenceIdeal.Stages.val_main_v156, Cert.ReferenceIdeal.Stages.val_main_v157, Cert.ReferenceIdeal.Stages.val_main_v158, Cert.ReferenceIdeal.Stages.val_main_v159, Cert.ReferenceIdeal.Stages.val_main_cst_18, Cert.ReferenceIdeal.Stages.val_main_v160, Cert.ReferenceIdeal.Stages.val_main_v161, Cert.ReferenceIdeal.Stages.val_main_v162, Cert.ReferenceIdeal.Stages.val_main_v163, Cert.ReferenceIdeal.Stages.val_main_v164, Cert.ReferenceIdeal.Stages.val_main_v165, Cert.ReferenceIdeal.Stages.val_main_v166, Cert.ReferenceIdeal.Stages.val_main_v167, Cert.ReferenceIdeal.Stages.val_main_v168, Cert.ReferenceIdeal.Stages.val_main_v169, Cert.ReferenceIdeal.Stages.val_main_v170, Cert.ReferenceIdeal.Stages.val_main_cst_19, Cert.ReferenceIdeal.Stages.val_main_v171, Cert.ReferenceIdeal.Stages.val_main_v172, Cert.ReferenceIdeal.Stages.val_main_cst_20, Cert.ReferenceIdeal.Stages.val_main_v173, Cert.ReferenceIdeal.Stages.val_main_v174, Cert.ReferenceIdeal.Stages.val_main_v175, Cert.ReferenceIdeal.Stages.val_main_v176, Cert.ReferenceIdeal.Stages.val_main_v177, Cert.ReferenceIdeal.Stages.val_main_v178, Cert.ReferenceIdeal.Stages.val_main_v179, Cert.ReferenceIdeal.Stages.val_main_v180, Cert.ReferenceIdeal.Stages.val_main_v181, Cert.ReferenceIdeal.Stages.val_main_cst_21, Cert.ReferenceIdeal.Stages.val_main_v182, Cert.ReferenceIdeal.Stages.val_main_v183, Cert.ReferenceIdeal.Stages.val_main_v184, Cert.ReferenceIdeal.Stages.val_main_v185, Cert.ReferenceIdeal.Stages.val_main_v186, Cert.ReferenceIdeal.Stages.val_main_cst_22, Cert.ReferenceIdeal.Stages.val_main_v187, Cert.ReferenceIdeal.Stages.val_main_v188, Cert.ReferenceIdeal.Stages.val_main_v189, Cert.ReferenceIdeal.Stages.val_main_v190, Cert.ReferenceIdeal.Stages.val_main_v191, Cert.ReferenceIdeal.Stages.val_main_v192, Cert.ReferenceIdeal.Stages.val_main_v193, Cert.ReferenceIdeal.Stages.val_main_v194, Cert.ReferenceIdeal.Stages.val_main_v195, Cert.ReferenceIdeal.Stages.val_main_v196, Cert.ReferenceIdeal.Stages.val_main_v197, Cert.ReferenceIdeal.Stages.val_main_v198, Cert.ReferenceIdeal.Stages.val_main_v199, Cert.ReferenceIdeal.Stages.val_main_v200, Cert.ReferenceIdeal.Stages.val_main_v201, Cert.ReferenceIdeal.Stages.val_main_v202, Cert.ReferenceIdeal.Stages.val_main_v203, Cert.ReferenceIdeal.Stages.val_main_cst_23, Cert.ReferenceIdeal.Stages.val_main_v204, Cert.ReferenceIdeal.Stages.val_main_v205, Cert.ReferenceIdeal.Stages.val_main_v206, Cert.ReferenceIdeal.Stages.val_main_v207, Cert.ReferenceIdeal.Stages.val_main_v208, Cert.ReferenceIdeal.Stages.val_main_v209, Cert.ReferenceIdeal.Stages.val_main_cst_24, Cert.ReferenceIdeal.Stages.val_main_v210, Cert.ReferenceIdeal.Stages.val_main_v211, Cert.ReferenceIdeal.Stages.val_main_v212, Cert.ReferenceIdeal.Stages.val_main_v213, Cert.ReferenceIdeal.Stages.val_main_v214, Cert.ReferenceIdeal.Stages.val_main_cst_25, Cert.ReferenceIdeal.Stages.val_main_v215, Cert.ReferenceIdeal.Stages.val_main_v216, Cert.ReferenceIdeal.Stages.val_main_v217, Cert.ReferenceIdeal.Stages.val_main_v218, Cert.ReferenceIdeal.Stages.val_main_v219, Cert.ReferenceIdeal.Stages.val_main_v220, Cert.ReferenceIdeal.Stages.val_main_v221, Cert.ReferenceIdeal.Stages.val_main_v222, Cert.ReferenceIdeal.Stages.val_main_v223, Cert.ReferenceIdeal.Stages.val_main_v224, Cert.ReferenceIdeal.Stages.val_main_cst_26, Cert.ReferenceIdeal.Stages.val_main_v225, Cert.ReferenceIdeal.Stages.val_main_v226, Cert.ReferenceIdeal.Stages.val_main_v227, Cert.ReferenceIdeal.Stages.val_main_v228, Cert.ReferenceIdeal.Stages.val_main_v229, Cert.ReferenceIdeal.Stages.val_main_cst_27, Cert.ReferenceIdeal.Stages.val_main_v230, Cert.ReferenceIdeal.Stages.val_main_v231, Cert.ReferenceIdeal.Stages.val_main_v232, Cert.ReferenceIdeal.Stages.val_main_v233, Cert.ReferenceIdeal.Stages.val_main_v234]
  simp (disch := decide) only [rows_addf, rows_subf, rows_mulf, rows_const, rows_col, rows_bcastCol, rows_cols8, rows_cols23,
    rows_1_8_23, reverse_cols8, cols16_cols7, shapeCast_self]

end Cert.Bridge

end
-- ==== Proof.KernelValue.lean ====
/-
  The kernel's output array after the run, as one function of its argument.

  The grid has 1024 points; point `t` is handed rows `4096·t … 4096·t + 4095` of the `[4194304, 8]` argument (its input
  block) and writes back rows `4096·t … 4096·t + 4095` of the `[4194304, 32]` result (its output block), all 32 columns.
  The body's result on an input block is the same rows of the reference's stage function of the whole argument
  (`Cert.Bridge.rows_result`), so what point `t` writes back is block `t` of that one function of the argument
  (`flushed_eq`); every row lies in the block of the point `row / 4096` (`cover`); so after the run the result array is
  that function of the argument (`final`, `run`).
-/
import proofs.«157958_j23407571764186_2_alg».proof.Proof.Gen.KernelIdeal.Value
import proofs.«157958_j23407571764186_2_alg».proof.Proof.Bridge

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx RowBlock
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The result array as a function of the argument array: the reference's last stage. -/
abbrev G (x : S4194304x8.Idx → Elt F .f32) : S4194304x32.Idx → Elt F .f32 :=
  Cert.ReferenceIdeal.Stages.val_main_v234 (F := F) x

/-- The printed index maps, decided over the grid: at point `t` both windows sit at block `t` along the rows and at
    block 0 along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A point's block of 4096 rows lies inside the 4194304 rows. -/
theorem rows_le (t : Fin cfg0.N) : t.val * 4096 + 4096 ≤ 4194304 := by
  have h : t.val < grid0.N := t.isLt
  rw [N_0] at h
  omega

/-- The input block at point `t` is rows `4096·t … 4096·t + 4095` of the argument array. -/
theorem iblk_eq (c : Dev nD) (t : Fin cfg0.N) :
    iblk m c 0 t = rows 4096 t.val (rows_le t) (V m c main_arg0) := by
  obtain ⟨e0, e1, -, -⟩ := idx_facts t
  funext y
  show V m c main_arg0 (((cfg0.win 0).blk t).view.emb y)
    = V m c main_arg0 (ix2 ⟨t.val * 4096 + (y 0).val, _⟩ ⟨(y 1).val, _⟩)
  refine congrArg _ (funext fun a => Fin.ext ?_)
  match a with
  | ⟨0, _⟩ =>
    show win0_0.index t (0 : Fin 2) * 4096 + 1 * (y 0).val = t.val * 4096 + (y 0).val
    rw [e0]; omega
  | ⟨1, _⟩ =>
    show win0_0.index t (1 : Fin 2) * 8 + 1 * (y 1).val = (y 1).val
    rw [e1]; omega

/-- WHAT POINT `t` WRITES BACK is block `t` of the stage function of the argument array. -/
theorem flushed_eq (c : Dev nD) (t : Fin cfg0.N) :
    (dats m 0 c).flushed 1 t = ((cfg0.win 1).blk t).view.read (Elt F) (G (V m c main_arg0)) := by
  rw [flushed1]
  unfold out0_1
  rw [View.canon_unit_zero hz]
  simp only [View.ld_unit_zero (S := S4096x8) hz]
  obtain ⟨-, -, e2, e3⟩ := idx_facts t
  funext j
  show Cert.Bridge.body (iblk m c 0 t) j = G (V m c main_arg0) (((cfg0.win 1).blk t).view.emb j)
  rw [iblk_eq, ← Cert.Bridge.rows_result]
  show G (V m c main_arg0) (ix2 ⟨t.val * 4096 + (j 0).val, _⟩ ⟨(j 1).val, _⟩) = _
  refine congrArg _ (funext fun a => Fin.ext ?_)
  match a with
  | ⟨0, _⟩ =>
    show t.val * 4096 + (j 0).val = win0_1.index t (0 : Fin 2) * 4096 + 1 * (j 0).val
    rw [e2]; omega
  | ⟨1, _⟩ =>
    show (j 1).val = win0_1.index t (1 : Fin 2) * 32 + 1 * (j 1).val
    rw [e3]; omega

/-- An index of the result array is in point `t`'s block iff each coordinate is in the block's range on its axis. -/
theorem mem_blk (t : Fin cfg0.N) (i : S4194304x32.Idx) :
    i ∈ ((cfg0.win 1).blk t).view.set ↔ ∀ a : Fin 2, win0_1.index t a * S4096x32.size a ≤ (i a).val
      ∧ (i a).val < win0_1.index t a * S4096x32.size a + S4096x32.size a := by
  show i ∈ ((View.whole main_v0).slice (win0_1.rect t)).set ↔ _
  rw [View.set_slice_whole, Rect.mem_set_unit]
  exact Iff.rfl

/-- Every index of the result array is in the block of the point its row falls in. -/
theorem cover (i : S4194304x32.Idx) :
    ∃ t : Fin cfg0.N, (cfg0.win 1).flush t = true ∧ i ∈ ((cfg0.win 1).blk t).view.set := by
  have hi0 : (i 0).val < 4194304 := (i 0).isLt
  have hi1 : (i 1).val < 32 := (i 1).isLt
  have hN : grid0.N = 1024 := N_0
  have ht : (i 0).val / 4096 < cfg0.N := by show _ < grid0.N; omega
  refine ⟨⟨(i 0).val / 4096, ht⟩, flush0_1 _, ?_⟩
  rw [mem_blk]
  obtain ⟨-, -, e2, e3⟩ := idx_facts ⟨(i 0).val / 4096, ht⟩
  intro a
  match a with
  | ⟨0, _⟩ =>
    show win0_1.index ⟨(i 0).val / 4096, ht⟩ (0 : Fin 2) * 4096 ≤ (i 0).val
      ∧ (i 0).val < win0_1.index ⟨(i 0).val / 4096, ht⟩ (0 : Fin 2) * 4096 + 4096
    rw [e2]
    show (i 0).val / 4096 * 4096 ≤ (i 0).val ∧ (i 0).val < (i 0).val / 4096 * 4096 + 4096
    omega
  | ⟨1, _⟩ =>
    show win0_1.index ⟨(i 0).val / 4096, ht⟩ (1 : Fin 2) * 32 ≤ (i 1).val
      ∧ (i 1).val < win0_1.index ⟨(i 0).val / 4096, ht⟩ (1 : Fin 2) * 32 + 32
    rw [e3]
    omega

/-- THE ARRAY after the run: the stage function of the argument array. -/
theorem final (c : Dev nD) : (dats m 0 c).arrAt 1 cfg0.N = G (V m c main_arg0) :=
  (dats m 0 c).arrAt_eq_of_cover 1 (G (V m c main_arg0)) (fun t _ => flushed_eq m c t) cover

/-- The frame run re-posted: the result array at the stage function of the argument, the argument unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.lean ====
/-
  The certificate of an fp8 (E4M3) to float32 bit-pulse converter: a Pallas kernel against its jnp reference.

  The input is a `[4194304, 8]` array whose rows are the eight bit pulses of an fp8 number (sign, four exponent bits,
  three mantissa bits); the output is the `[4194304, 32]` array of the float32 encoding's bit pulses, computed by gates
  written as arithmetic (AND a·b, OR a + b − a·b, NOT 1 − a, XOR a + b − 2·a·b, MUX s·a + (1 − s)·b): an eight-bit
  ripple-carry adder puts 120 onto the exponent, subnormals are renormalized by a small priority selection on the
  mantissa, and zero is passed through. Kernel and reference apply the same gates in the same order, row by row; the
  kernel works on blocks of 4096 rows, builds the adder's sum bits already most-significant first where the reference
  reverses them, and concatenates the mantissa's 23 columns at once where the reference does it in two steps. At the ideal
  instance (floats as extended reals, operations exact) the two results are therefore the same expression of the same
  entries of the argument, whatever those entries are: the precondition is never opened and no arithmetic law is used.

  The pieces: `Proof/LibRowBlock.lean` (a block of rows commutes with every row-wise layout operation),
  `Proof/Bridge.lean` (rows `4096·t …` of the reference's result are the kernel body's result on those rows),
  `Proof/KernelValue.lean` (the kernel's output array after the run is the reference's stage function of the argument),
  `Proof/RefStages.lean`, `Proof/RefWin0.lean` … `Proof/RefWin4.lean` and `Proof/RefRun.lean` (the reference's run, its result
  at the last of its named stages). The three frames: the kernel's two are the generated frame certificates, the
  reference's is its run with the result dropped. `preserves` is `True`: the ideal pass rewrote nothing.
-/
import proofs.«157958_j23407571764186_2_alg».proof.Defs
import proofs.«157958_j23407571764186_2_alg».proof.Proof.Gen.Kernel
import proofs.«157958_j23407571764186_2_alg».proof.Proof.Gen.Kernel.Skeleton
import proofs.«157958_j23407571764186_2_alg».proof.Proof.Gen.Kernel.Launch
import proofs.«157958_j23407571764186_2_alg».proof.Proof.Gen.Kernel.Points
import proofs.«157958_j23407571764186_2_alg».proof.Proof.Gen.Kernel.Frame
import proofs.«157958_j23407571764186_2_alg».proof.Proof.Gen.KernelIdeal
import proofs.«157958_j23407571764186_2_alg».proof.Proof.Gen.KernelIdeal.Skeleton
import proofs.«157958_j23407571764186_2_alg».proof.Proof.Gen.KernelIdeal.Launch
import proofs.«157958_j23407571764186_2_alg».proof.Proof.Gen.KernelIdeal.Points
import proofs.«157958_j23407571764186_2_alg».proof.Proof.Gen.KernelIdeal.Frame
import proofs.«157958_j23407571764186_2_alg».proof.Proof.Gen.ReferenceIdeal
import proofs.«157958_j23407571764186_2_alg».proof.Proof.Gen.Pre_finite_inputs
import proofs.«157958_j23407571764186_2_alg».proof.Proof.Gen.KernelIdeal.Value
import proofs.«157958_j23407571764186_2_alg».proof.Proof.KernelValue
import proofs.«157958_j23407571764186_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its argument unchanged: the generated frame certificate. -/
theorem frame_k : Cert.frame_Kernel := fun m ρ _ => Cert.Kernel.Gen.frame m ρ

/-- The idealized kernel runs and leaves its argument unchanged: the generated frame certificate. -/
theorem frame_ki : Cert.frame_KernelIdeal := fun m ρ _ => Cert.KernelIdeal.Gen.frame m ρ

/-- The idealized reference runs and leaves its argument unchanged: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- At the ideal instance the kernel's result array ends at the reference's stage function of its argument (block of
    rows by block of rows, `Cert.KernelIdeal.Whole.run`) and the reference's at the same function of its own argument
    (`Cert.ReferenceIdeal.RunP.run`); the arguments agree. -/
theorem algebraic : Cert.algebraic_KernelIdeal_ReferenceIdeal := by
  intro m ρ m' ρ' _ hagree
  refine ⟨fun c => Cert.KernelIdeal.Whole.G (F := Ideal) (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
